-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S1024 : Shape := ⟨1, ![1024]⟩
abbrev S1024x1024 : Shape := ⟨2, ![1024, 1024]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4096x8x1024 .f32) (main_arg1 : FVec F S1024 .f32) (main_arg2 : FVec F S1024x1024 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4096x8x1024 : Shape := ⟨3, ![4096, 8, 1024]⟩
abbrev S1024 : Shape := ⟨1, ![1024]⟩
abbrev S1024x1024 : Shape := ⟨2, ![1024, 1024]⟩
abbrev S32768x1024 : Shape := ⟨2, ![32768, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x8x1024, .f32⟩
  | .hbm, ⟨1, _⟩ => ⟨S1024, .f32⟩
  | .hbm, ⟨2, _⟩ => ⟨S1024x1024, .f32⟩
  | .hbm, ⟨3, _⟩ => ⟨S32768x1024, .f32⟩
  | .hbm, ⟨4, _⟩ => ⟨S1024x1024, .bf16⟩
  | .hbm, ⟨5, _⟩ => ⟨S32768x1024, .f32⟩
  | .hbm, ⟨6, _⟩ => ⟨S32768x1024, .f32⟩
  | .hbm, ⟨7, _⟩ => ⟨S4096x8x1024, .f32⟩
  | .hbm, ⟨8, _⟩ => ⟨S4096x8x1024, .f32⟩
  | .local _ .vmem, ⟨0, _⟩ => ⟨S512x1024, .f32⟩
  | .local _ .vmem, ⟨1, _⟩ => ⟨S512x1024, .f32⟩
  | .local _ .vmem, ⟨2, _⟩ => ⟨S1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096x8x1024_S32768x1024 : S4096x8x1024.ShapeCasts S32768x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S32768x1024_S4096x8x1024 : S32768x1024.ShapeCasts S4096x8x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S32768x1024.size a
  hwx0_4 : ∀ i : grid0.Coords, EltTy.bits .f32 = 32 ∨ (Rect.block (s := S32768x1024) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S1024 : Shape := ⟨1, ![1024]⟩
abbrev S1024x1024 : Shape := ⟨2, ![1024, 1024]⟩
abbrev S_ : Shape := ⟨0, ![]⟩
abbrev S4096x8 : Shape := ⟨2, ![4096, 8]⟩
abbrev S4096x8x1 : Shape := ⟨3, ![4096, 8, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x8x1024, .f32⟩
  | .hbm, ⟨1, _⟩ => ⟨S1024, .f32⟩
  | .hbm, ⟨2, _⟩ => ⟨S1024x1024, .f32⟩
  | .hbm, ⟨3, _⟩ => ⟨S_, .f32⟩
  | .hbm, ⟨4, _⟩ => ⟨S4096x8, .f32⟩
  | .hbm, ⟨5, _⟩ => ⟨S4096x8x1, .f32⟩
  | .hbm, ⟨6, _⟩ => ⟨S_, .f32⟩
  | .hbm, ⟨7, _⟩ => ⟨S4096x8x1, .f32⟩
  | .hbm, ⟨8, _⟩ => ⟨S4096x8x1, .f32⟩
  | .hbm, ⟨9, _⟩ => ⟨S4096x8x1024, .f32⟩
  | .hbm, ⟨10, _⟩ => ⟨S4096x8x1024, .f32⟩
  | .hbm, ⟨11, _⟩ => ⟨S4096x8x1024, .f32⟩
  | .hbm, ⟨12, _⟩ => ⟨S_, .f32⟩
  | .hbm, ⟨13, _⟩ => ⟨S4096x8, .f32⟩
  | .hbm, ⟨14, _⟩ => ⟨S4096x8x1, .f32⟩
  | .hbm, ⟨15, _⟩ => ⟨S_, .f32⟩
  | .hbm, ⟨16, _⟩ => ⟨S4096x8x1, .f32⟩
  | .hbm, ⟨17, _⟩ => ⟨S4096x8x1, .f32⟩
  | .hbm, ⟨18, _⟩ => ⟨S4096x8x1024, .f32⟩
  | .hbm, ⟨19, _⟩ => ⟨S4096x8x1024, .f32⟩
  | .hbm, ⟨20, _⟩ => ⟨S_, .f32⟩
  | .hbm, ⟨21, _⟩ => ⟨S4096x8x1, .f32⟩
  | .hbm, ⟨22, _⟩ => ⟨S4096x8x1, .f32⟩
  | .hbm, ⟨23, _⟩ => ⟨S4096x8x1, .f32⟩
  | .hbm, ⟨24, _⟩ => ⟨S4096x8x1024, .f32⟩
  | .hbm, ⟨25, _⟩ => ⟨S4096x8x1024, .f32⟩
  | .hbm, ⟨26, _⟩ => ⟨S1x1x1024, .f32⟩
  | .hbm, ⟨27, _⟩ => ⟨S4096x8x1024, .f32⟩
  | .hbm, ⟨28, _⟩ => ⟨S4096x8x1024, .f32⟩
  | .hbm, ⟨29, _⟩ => ⟨S4096x8x1024, .f32⟩
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S4096x8x1024_S4096x8_d2 : S4096x8x1024.ReducesTo [2] S4096x8
  h_S_ : 0 < S_.numel
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S4096x8x1_S4096x8x1024_0_1_2 : S4096x8x1.BroadcastsInDim S4096x8x1024 (![0, 1, 2] : Fin 3 → Fin S4096x8x1024.rank)
  bcast_S1024_S1x1x1024_2 : S1024.BroadcastsInDim S1x1x1024 (![2] : Fin 1 → Fin S1x1x1024.rank)
  bcast_S1x1x1024_S4096x8x1024_0_1_2 : S1x1x1024.BroadcastsInDim S4096x8x1024 (![0, 1, 2] : Fin 3 → Fin S4096x8x1024.rank)
  dot_S4096x8x1024_S1024x1024_S4096x8x1024_2_0_01_1_n_n_wf : DotDims.WF S4096x8x1024 S1024x1024 S4096x8x1024 [2] [0] [0, 1] [1] [] []

variable [Facts₀]

def dot_S4096x8x1024_S1024x1024_S4096x8x1024_2_0_01_1_n_n : DotDims S4096x8x1024 S1024x1024 S4096x8x1024 where
  lhsContracting := [2]
  rhsContracting := [0]
  lhsNonContracting := [0, 1]
  rhsNonContracting := [1]
  lhsBatch := []
  rhsBatch := []
  wf := dot_S4096x8x1024_S1024x1024_S4096x8x1024_2_0_01_1_n_n_wf

class Facts : Prop extends Facts₀ where

variable [Facts]
-- ==== Proof.RowSpec.lean ====
/-
  The mathematics both programs compute, one row at a time, on the extended reals.

  A row `r` of 1024 entries is centred on its mean `(Σ r) / 1024`, scaled by the reciprocal square root of its
  variance `(Σ (r - mean)²) / 1024` plus a small constant, and multiplied entry by entry by a scale vector `s`: the
  normalised row `lnRow r s`. The projected row `zRow r s W` contracts the normalised row with a matrix `W`:
  entry `q` is `Σ k, lnRow r s k * W k q`.

  The two constants are kept as the 32-bit words both programs print (the width `1024.0` and the small constant next
  to `1e-6`): the same word on both sides is never evaluated.
-/
import Idealize.ShloMosaic.PureOps.Ideal

noncomputable section

open scoped BigOperators

namespace Cert.LnDense

open Idealize.ShloMosaic

/-- The row length as both programs write it: the f32 word of `1024.0`. -/
def width : EReal := Ideal.ofBits .f32 0x44800000#32

/-- The constant added to the variance, as both programs write it: the f32 word nearest `1e-6`. -/
def eps : EReal := Ideal.ofBits .f32 0x358637BD#32

/-- The mean of a row: its sum divided by the row length. -/
def rowMean (r : Fin 1024 → EReal) : EReal := Ideal.div (∑ k : Fin 1024, r k) width

/-- A row's entry less the row's mean. -/
def centred (r : Fin 1024 → EReal) (k : Fin 1024) : EReal := r k - rowMean r

/-- The variance of a row: the mean of the squares of its centred entries. -/
def rowVar (r : Fin 1024 → EReal) : EReal := Ideal.div (∑ k : Fin 1024, centred r k * centred r k) width

/-- The factor a centred row is scaled by: the reciprocal square root of the variance plus the small constant. -/
def rowScale (r : Fin 1024 → EReal) : EReal := Ideal.rsqrt (rowVar r + eps)

/-- The normalised row: centred, scaled, and multiplied entry by entry by the scale vector. -/
def lnRow (r s : Fin 1024 → EReal) (k : Fin 1024) : EReal := centred r k * rowScale r * s k

/-- The projected row: the normalised row contracted with the matrix `W`. -/
def zRow (r s : Fin 1024 → EReal) (W : Fin 1024 → Fin 1024 → EReal) (q : Fin 1024) : EReal :=
  ∑ k : Fin 1024, lnRow r s k * W k q

end Cert.LnDense

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.BlockRows.lean ====
/-
  The kernel body's two stored values, read at an index, are the row specification of the block's row.

  The body loads a block `x0` of 512 rows, the scale vector `x1` and the matrix `x2`. Entry (p, q) of the first stored
  value is entry `q` of the normalised row `p` of the block; entry (p, q) of the second is the contraction of that
  normalised row with column `q` of the matrix. The lane sums are sums over the row, the keepdims casts and broadcasts
  read the row's one value, a narrowing of the float format is the identity on the extended reals, and the matrix unit's
  product into the zero accumulator is the sum of the products over the contracted axis.
-/
import proofs.«143798_j3564822855851_1_alg».proof.Proof.Gen.KernelIdeal.Skeleton
import proofs.«143798_j3564822855851_1_alg».proof.Proof.RowSpec
import proofs.«143798_j3564822855851_1_alg».proof.Proof.LibKeepdims
import Idealize.ShloMosaic.Lib.ValueLayout
import Idealize.ShloMosaic.PureOps.Ideal.Laws

noncomputable section

open scoped BigOperators

namespace Cert.KernelIdeal.BlockRows

open Cert.KernelIdeal Cert.KernelIdeal.Gen Idealize.ShloMosaic Idealize.ShloMosaic.ValueIdx Cert.LnDense

variable (x0 : Vec Ideal S512x1024 .f32) (x1 : Vec Ideal S1024 .f32) (x2 : Vec Ideal S1024x1024 .bf16)

/-- A reciprocal square root at an index is the extended reals' one of the element. -/
theorem rsqrt_apply {s : Shape} {φ : FTy} (v : FVec Ideal s φ) (i : s.Idx) : rsqrt v i = Ideal.rsqrt (v i) := rfl

/-- THE FIRST STORED VALUE at (p, q): entry `q` of the normalised row `p` of the block. -/
theorem pay1_apply (p : Fin 512) (q : Fin 1024) :
    k0_pay1 (F := Ideal) x0 x1 (ix2 p q) = lnRow (fun k => x0 (ix2 p k)) (fun k => x1 (ix1 k)) q := by
  unfold k0_pay1
  -- the row's sum, and the sum of the squares of its centred entries
  have e1 := laneSum_ab_apply x0 0x00000000#32 reduces_S512x1024_S512 (.inl rfl) rfl p
  simp only [mulf_apply, subf_apply, addf_apply, divf_apply, rsqrt_apply, broadcast_apply, shapeCast_self,
    broadcastTo_a1_ab_apply, broadcastTo_1b_ab_apply, shapeCast_a_1a_apply, shapeCast_a_a1_apply, e1]
  rw [laneSum_ab_apply _ 0x00000000#32 reduces_S512x1024_S512 (.inl rfl) rfl p]
  simp only [mulf_apply, subf_apply, divf_apply, broadcast_apply, broadcastTo_a1_ab_apply, shapeCast_a_a1_apply, e1]
  rfl

/-! ## The matrix unit's product: its operand indices by coordinates -/

theorem lhs_row (i : S512x1024.Idx) (c : dot_S512x1024_S1024x1024_S512x1024_1_0_0_1_n_n.contr.Idx) :
    (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs_contr (i : S512x1024.Idx) (c : dot_S512x1024_S1024x1024_S512x1024_1_0_0_1_n_n.contr.Idx) :
    (dot_S512x1024_S1024x1024_S512x1024_1_0_0_1_n_n.lhsIdx i c 1).val = (c ⟨0, by decide⟩).val :=
  dot_S512x1024_S1024x1024_S512x1024_1_0_0_1_n_n.lhsIdx_val_of_single rfl i c
theorem rhs_contr (i : S512x1024.Idx) (c : dot_S512x1024_S1024x1024_S512x1024_1_0_0_1_n_n.contr.Idx) :
    (dot_S512x1024_S1024x1024_S512x1024_1_0_0_1_n_n.rhsIdx i c 0).val = (c ⟨0, by decide⟩).val :=
  dot_S512x1024_S1024x1024_S512x1024_1_0_0_1_n_n.rhsIdx_val_of_single rfl i c
theorem rhs_col (i : S512x1024.Idx) (c : dot_S512x1024_S1024x1024_S512x1024_1_0_0_1_n_n.contr.Idx) :
    (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- THE SECOND STORED VALUE at (p, q): the normalised row `p` of the block contracted with column `q` of the matrix. -/
theorem pay2_apply (p : Fin 512) (q : Fin 1024) :
    k0_pay2 (F := Ideal) x0 x1 x2 (ix2 p q)
      = zRow (fun k => x0 (ix2 p k)) (fun k => x1 (ix1 k)) (fun k q => x2 (ix2 k q)) q := by
  unfold k0_pay2
  simp only [matmul]
  rw [Ideal.matmul_constant_zero_apply,
    ← Equiv.sum_comp (contrEquiv1 dot_S512x1024_S1024x1024_S512x1024_1_0_0_1_n_n 1024 rfl rfl).symm]
  unfold zRow
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q)
      ((contrEquiv1 dot_S512x1024_S1024x1024_S512x1024_1_0_0_1_n_n 1024 rfl rfl).symm k) = ix2 p k :=
    funext fun a => Fin.ext (by
      match a with
      | ⟨0, _⟩ => exact lhs_row _ _
      | ⟨1, _⟩ => exact (lhs_contr _ _).trans hk)
  have er : dot_S512x1024_S1024x1024_S512x1024_1_0_0_1_n_n.rhsIdx (ix2 p q)
      ((contrEquiv1 dot_S512x1024_S1024x1024_S512x1024_1_0_0_1_n_n 1024 rfl rfl).symm k) = ix2 k q :=
    funext fun a => Fin.ext (by
      match a with
      | ⟨0, _⟩ => exact (rhs_contr _ _).trans hk
      | ⟨1, _⟩ => exact rhs_col _ _)
  rw [el, er, truncf_apply, shapeCast_self, pay1_apply]

end Cert.KernelIdeal.BlockRows

end
-- ==== Proof.KernelBlocks.lean ====
/-
  From the kernel's blocks to its two output arrays.

  The region works on the first argument with its two leading axes merged, a 32768 × 1024 array `X`, on the scale
  vector `s` and on the matrix `W` (the third argument, narrowed to bf16: the identity on the extended reals). Grid
  point `t` of 64 loads rows 512 t … 512 t + 511 of `X`, all of `s` and all of `W`, and writes back rows
  512 t … 512 t + 511 of both outputs. So each output array is one function of `X`, `s`, `W` row by row — the
  normalised rows `lnArr X s` and the projected rows `zArr X s W` — and the 64 row blocks cover the arrays.
-/
import proofs.«143798_j3564822855851_1_alg».proof.Proof.Gen.KernelIdeal.Frame
import proofs.«143798_j3564822855851_1_alg».proof.Proof.BlockRows
import Idealize.ShloMosaic.Lib.Pipeline.Value
import Idealize.ShloMosaic.Lib.StableHlo.Run

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.LnDense Cert.KernelIdeal.BlockRows
open Idealize.ShloMosaic.Pipeline (Dat)

variable (m : (ℓ : Loc nD τ sig) → Buf (Elt Ideal) ℓ) (ρ : Dev nD → PrngReg)

/-! ## The two output arrays as functions of the region's three input arrays -/

/-- The normalised rows: entry (r, q) is entry `q` of the normalised row `r` of `X`. -/
def lnArr (X : S32768x1024.Idx → EReal) (s : S1024.Idx → EReal) : S32768x1024.Idx → EReal :=
  fun i => lnRow (fun k => X (ix2 (i 0 : Fin 32768) k)) (fun k => s (ix1 k)) (i 1 : Fin 1024)

/-- The projected rows: entry (r, q) is the normalised row `r` of `X` contracted with column `q` of `W`. -/
def zArr (X : S32768x1024.Idx → EReal) (s : S1024.Idx → EReal) (W : S1024x1024.Idx → EReal) : S32768x1024.Idx → EReal :=
  fun i => zRow (fun k => X (ix2 (i 0 : Fin 32768) k)) (fun k => s (ix1 k)) (fun k q => W (ix2 k q)) (i 1 : Fin 1024)

/-! ## The grid's index maps, and each input block as rows of its array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 64 grid points: the row-blocked windows are at block row `t`, the scale
    vector and the matrix at their one block. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the first window's block at point `t` is row 512 t + p of the merged first argument. -/
theorem iblk0_apply (c : Dev nD) (t : Fin cfg0.N) (p : Fin 512) (k : Fin 1024) (r : Fin 32768)
    (hr : r.val = 512 * t.val + p.val) :
    (iblk m c 0 t : Vec Ideal S512x1024 .f32) (ix2 p k) = (V m c main_v0 : S32768x1024.Idx → EReal) (ix2 r k) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The second window's block is the whole scale vector at every point. -/
theorem iblk1_apply (c : Dev nD) (t : Fin cfg0.N) (k : Fin 1024) :
    (iblk m c 1 t : Vec Ideal S1024 .f32) (ix1 k) = (V m c main_arg1 : S1024.Idx → EReal) (ix1 k) := by
  obtain ⟨-, -, e0, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 1) * 1024 + 1 * k.val = k.val; rw [e0]; omega

/-- The third window's block is the whole matrix at every point. -/
theorem iblk2_apply (c : Dev nD) (t : Fin cfg0.N) (k q : Fin 1024) :
    (iblk m c 2 t : Vec Ideal S1024x1024 .bf16) (ix2 k q) = (V m c main_v1 : S1024x1024.Idx → EReal) (ix2 k q) := by
  obtain ⟨-, -, -, e0, e1, -⟩ := idx_facts t
  unfold iblk
  rw [View.read_apply]
  show V m c main_v1 _ = V m c main_v1 _
  refine congrArg (V m c main_v1) (funext fun a => Fin.ext ?_)
  match a with
  | ⟨0, _⟩ => show win0_2.index t (0 : Fin 2) * 1024 + 1 * k.val = k.val; rw [e0]; omega
  | ⟨1, _⟩ => show win0_2.index t (1 : Fin 2) * 1024 + 1 * q.val = q.val; rw [e1]; omega

/-! ## What a point stores, as rows of the whole-array functions -/

/-- The body's first stored value at point `t`, entry (p, q): entry (512 t + p, q) of the normalised rows. -/
theorem stored_ln (c : Dev nD) (t : Fin cfg0.N) (p : Fin 512) (q : Fin 1024) (r : Fin 32768)
    (hr : r.val = 512 * t.val + p.val) :
    k0_pay1 (F := Ideal) (iblk m c 0 t) (iblk m c 1 t) (ix2 p q)
      = lnArr (V m c main_v0) (V m c main_arg1) (ix2 r q) := by
  refine (pay1_apply (iblk m c 0 t) (iblk m c 1 t) p q).trans ?_
  have h0 : (fun k : Fin 1024 => (iblk m c 0 t : Vec Ideal S512x1024 .f32) (ix2 p k))
      = fun k => (V m c main_v0 : S32768x1024.Idx → EReal) (ix2 r k) := funext fun k => iblk0_apply m c t p k r hr
  have h1 : (fun k : Fin 1024 => (iblk m c 1 t : Vec Ideal S1024 .f32) (ix1 k))
      = fun k => (V m c main_arg1 : S1024.Idx → EReal) (ix1 k) := funext fun k => iblk1_apply m c t k
  rw [h0, h1]
  rfl

/-- The body's second stored value at point `t`, entry (p, q): entry (512 t + p, q) of the projected rows. -/
theorem stored_z (c : Dev nD) (t : Fin cfg0.N) (p : Fin 512) (q : Fin 1024) (r : Fin 32768)
    (hr : r.val = 512 * t.val + p.val) :
    k0_pay2 (F := Ideal) (iblk m c 0 t) (iblk m c 1 t) (iblk m c 2 t) (ix2 p q)
      = zArr (V m c main_v0) (V m c main_arg1) (V m c main_v1) (ix2 r q) := by
  refine (pay2_apply (iblk m c 0 t) (iblk m c 1 t) (iblk m c 2 t) p q).trans ?_
  have h0 : (fun k : Fin 1024 => (iblk m c 0 t : Vec Ideal S512x1024 .f32) (ix2 p k))
      = fun k => (V m c main_v0 : S32768x1024.Idx → EReal) (ix2 r k) := funext fun k => iblk0_apply m c t p k r hr
  have h1 : (fun k : Fin 1024 => (iblk m c 1 t : Vec Ideal S1024 .f32) (ix1 k))
      = fun k => (V m c main_arg1 : S1024.Idx → EReal) (ix1 k) := funext fun k => iblk1_apply m c t k
  have h2 : (fun k q : Fin 1024 => (iblk m c 2 t : Vec Ideal S1024x1024 .bf16) (ix2 k q))
      = fun k q => (V m c main_v1 : S1024x1024.Idx → EReal) (ix2 k q) :=
    funext fun k => funext fun q => iblk2_apply m c t k q
  rw [h0, h1, h2]
  rfl

end Cert.KernelIdeal.Blocks

end
-- ==== Proof.KernelArrays.lean ====
/-
  The two output arrays after the region: the normalised rows and the projected rows of the merged first argument.

  Point `t` writes back, to rows 512 t … 512 t + 511 of each output array, exactly those rows of the whole-array
  function; the row containing index `i` belongs to point `i₀ / 512`, so the 64 blocks cover each array, and each
  array ends holding its function.
-/
import proofs.«143798_j3564822855851_1_alg».proof.Proof.KernelBlocks

noncomputable section

namespace Cert.KernelIdeal.Blocks

open Cert.KernelIdeal Cert.KernelIdeal.Gen Idealize.ShloMosaic Idealize.ShloMosaic.TcCoe Idealize.SL.Sem
open Idealize.ShloMosaic.ValueIdx Cert.LnDense Cert.KernelIdeal.BlockRows
open Idealize.ShloMosaic.Pipeline (Dat)

variable (m : (ℓ : Loc nD τ sig) → Buf (Elt Ideal) ℓ) (ρ : Dev nD → PrngReg)

/-! ## What point `t` writes back -/

/-- To the second output (the normalised rows): block `t` of `lnArr`. -/
theorem flushed_ln (c : Dev nD) (t : Fin cfg0.N) :
    (dats m 0 c).flushed 4 t
      = ((cfg0.win 4).blk t).view.read (Elt Ideal) (lnArr (V m c main_v0) (V m c main_arg1)) := by
  show (cfg0.win 4).cut (grid0.coords t) ((dats m 0 c).after 4 t) = _
  rw [after0_4]
  unfold out0_4
  rw [View.canon_unit_zero hz2]
  simp only [View.ld_unit_zero (S := S512x1024) hz2, View.ld_unit_zero (S := S1024) hz1]
  obtain ⟨-, -, -, -, -, -, -, e0, e1⟩ := idx_facts t
  have hN : t.val < 64 := lt_of_lt_of_eq t.isLt N_0
  funext j
  obtain ⟨p, q, rfl⟩ : ∃ (p : Fin 512) (q : Fin 1024), j = ix2 p q := ⟨j 0, j 1, eq_ix2 j⟩
  have hp : p.val < 512 := p.isLt
  show k0_pay1 (F := Ideal) (iblk m c 0 t) (iblk m c 1 t) (ix2 p q)
    = lnArr (V m c main_v0) (V m c main_arg1) (((cfg0.win 4).blk t).view.emb (ix2 p q))
  have he : ((cfg0.win 4).blk t).view.emb (ix2 p q) = ix2 (⟨512 * t.val + p.val, by omega⟩ : Fin 32768) q := by
    funext a; apply Fin.ext
    match a with
    | ⟨0, _⟩ => show win0_4.index t (0 : Fin 2) * 512 + 1 * p.val = 512 * t.val + p.val; rw [e0]; omega
    | ⟨1, _⟩ => show win0_4.index t (1 : Fin 2) * 1024 + 1 * q.val = q.val; rw [e1]; omega
  rw [he]
  exact stored_ln m c t p q _ rfl

/-- To the first output (the projected rows): block `t` of `zArr`. -/
theorem flushed_z (c : Dev nD) (t : Fin cfg0.N) :
    (dats m 0 c).flushed 3 t
      = ((cfg0.win 3).blk t).view.read (Elt Ideal) (zArr (V m c main_v0) (V m c main_arg1) (V m c main_v1)) := by
  show (cfg0.win 3).cut (grid0.coords t) ((dats m 0 c).after 3 t) = _
  rw [after0_3]
  unfold out0_3
  rw [View.canon_unit_zero hz2]
  simp only [View.ld_unit_zero (S := S512x1024) hz2, View.ld_unit_zero (S := S1024) hz1,
    View.ld_unit_zero (S := S1024x1024) hz2]
  obtain ⟨-, -, -, -, -, e0, e1, -⟩ := idx_facts t
  have hN : t.val < 64 := lt_of_lt_of_eq t.isLt N_0
  funext j
  obtain ⟨p, q, rfl⟩ : ∃ (p : Fin 512) (q : Fin 1024), j = ix2 p q := ⟨j 0, j 1, eq_ix2 j⟩
  have hp : p.val < 512 := p.isLt
  show k0_pay2 (F := Ideal) (iblk m c 0 t) (iblk m c 1 t) (iblk m c 2 t) (ix2 p q)
    = zArr (V m c main_v0) (V m c main_arg1) (V m c main_v1) (((cfg0.win 3).blk t).view.emb (ix2 p q))
  have he : ((cfg0.win 3).blk t).view.emb (ix2 p q) = ix2 (⟨512 * t.val + p.val, by omega⟩ : Fin 32768) q := by
    funext a; apply Fin.ext
    match a with
    | ⟨0, _⟩ => show win0_3.index t (0 : Fin 2) * 512 + 1 * p.val = 512 * t.val + p.val; rw [e0]; omega
    | ⟨1, _⟩ => show win0_3.index t (1 : Fin 2) * 1024 + 1 * q.val = q.val; rw [e1]; omega
  rw [he]
  exact stored_z m c t p q _ rfl

/-! ## The blocks cover the arrays -/

/-- An index of the second output is in point `t`'s block iff each coordinate is in the block's range on its axis. -/
theorem mem_blk_ln (t : Fin cfg0.N) (i : S32768x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v2_1).slice (win0_4.rect t)).set ↔ _
  rw [View.set_slice_whole, Rect.mem_set_unit]
  exact Iff.rfl

/-- The same for the first output. -/
theorem mem_blk_z (t : Fin cfg0.N) (i : S32768x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2_0).slice (win0_3.rect t)).set ↔ _
  rw [View.set_slice_whole, Rect.mem_set_unit]
  exact Iff.rfl

/-- Row `i₀` of the second output is written back by point `i₀ / 512`. -/
theorem cover_ln (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  let t : Fin cfg0.N := ⟨(i 0).val / 512, lt_of_lt_of_eq (by omega : (i 0).val / 512 < 64) N_0.symm⟩
  obtain ⟨-, -, -, -, -, -, -, e0, e1⟩ := idx_facts t
  refine ⟨t, flush0_4 t, ?_⟩
  rw [mem_blk_ln]
  intro a
  match a with
  | ⟨0, _⟩ =>
    show win0_4.index t (0 : Fin 2) * 512 ≤ (i 0).val ∧ (i 0).val < win0_4.index t (0 : Fin 2) * 512 + 512
    rw [e0]; show (i 0).val / 512 * 512 ≤ (i 0).val ∧ (i 0).val < (i 0).val / 512 * 512 + 512; omega
  | ⟨1, _⟩ =>
    show win0_4.index t (1 : Fin 2) * 1024 ≤ (i 1).val ∧ (i 1).val < win0_4.index t (1 : Fin 2) * 1024 + 1024
    rw [e1]; omega

/-- Row `i₀` of the first output is written back by point `i₀ / 512`. -/
theorem cover_z (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  let t : Fin cfg0.N := ⟨(i 0).val / 512, lt_of_lt_of_eq (by omega : (i 0).val / 512 < 64) N_0.symm⟩
  obtain ⟨-, -, -, -, -, e0, e1, -⟩ := idx_facts t
  refine ⟨t, flush0_3 t, ?_⟩
  rw [mem_blk_z]
  intro a
  match a with
  | ⟨0, _⟩ =>
    show win0_3.index t (0 : Fin 2) * 512 ≤ (i 0).val ∧ (i 0).val < win0_3.index t (0 : Fin 2) * 512 + 512
    rw [e0]; show (i 0).val / 512 * 512 ≤ (i 0).val ∧ (i 0).val < (i 0).val / 512 * 512 + 512; omega
  | ⟨1, _⟩ =>
    show win0_3.index t (1 : Fin 2) * 1024 ≤ (i 1).val ∧ (i 1).val < win0_3.index t (1 : Fin 2) * 1024 + 1024
    rw [e1]; omega

/-! ## The arrays after the run -/

/-- The second output's array ends holding the normalised rows. -/
theorem final_ln (c : Dev nD) : (dats m 0 c).arrAt 4 cfg0.N = lnArr (V m c main_v0) (V m c main_arg1) :=
  (dats m 0 c).arrAt_eq_of_cover 4 (lnArr (V m c main_v0) (V m c main_arg1)) (fun t _ => flushed_ln m c t) cover_ln

/-- The first output's array ends holding the projected rows. -/
theorem final_z (c : Dev nD) :
    (dats m 0 c).arrAt 3 cfg0.N = zArr (V m c main_v0) (V m c main_arg1) (V m c main_v1) :=
  (dats m 0 c).arrAt_eq_of_cover 3 (zArr (V m c main_v0) (V m c main_arg1) (V m c main_v1))
    (fun t _ => flushed_z m c t) cover_z

end Cert.KernelIdeal.Blocks

end
-- ==== Proof.Results.lean ====
/-
  The two results as functions of the three arguments.

  Both results have shape 4096 × 8 × 1024. Entry (a, b, h) of the second result is entry `h` of the normalised row
  (a, b) of the first argument; entry (a, b, q) of the first result is that normalised row contracted with column `q`
  of the third argument.
-/
import proofs.«143798_j3564822855851_1_alg».proof.Proof.RowSpec
import Idealize.ShloMosaic.Lib.ValueIdx

noncomputable section

namespace Cert.LnDense

open Idealize.ShloMosaic Idealize.ShloMosaic.ValueIdx

/-- The second result: the normalised rows, indexed (a, b, h). -/
def lnOut (x : (⟨3, ![4096, 8, 1024]⟩ : Shape).Idx → EReal) (s : (⟨1, ![1024]⟩ : Shape).Idx → EReal) :
    (⟨3, ![4096, 8, 1024]⟩ : Shape).Idx → EReal :=
  fun i => lnRow (fun k => x (ix3 (i 0 : Fin 4096) (i 1 : Fin 8) k)) (fun k => s (ix1 k)) (i 2 : Fin 1024)

/-- The first result: the projected rows, indexed (a, b, q). -/
def zOut (x : (⟨3, ![4096, 8, 1024]⟩ : Shape).Idx → EReal) (s : (⟨1, ![1024]⟩ : Shape).Idx → EReal)
    (W : (⟨2, ![1024, 1024]⟩ : Shape).Idx → EReal) : (⟨3, ![4096, 8, 1024]⟩ : Shape).Idx → EReal :=
  fun i => zRow (fun k => x (ix3 (i 0 : Fin 4096) (i 1 : Fin 8) k)) (fun k => s (ix1 k)) (fun k q => W (ix2 k q))
    (i 2 : Fin 1024)

end Cert.LnDense

end
-- ==== Proof.KernelResults.lean ====
/-
  The kernel's two results as functions of its three arguments, and its run.

  Before the region the first argument's two leading axes are merged (a reshape: row 8 a + b of the merged array is row
  (a, b) of the argument) and the third argument is narrowed to bf16 (the identity on the extended reals); after it
  each output array's leading axis is split back. Read at (a, b, ·), the first result is the projected row (a, b) and
  the second the normalised row (a, b) of the arguments.
-/
import proofs.«143798_j3564822855851_1_alg».proof.Proof.KernelArrays
import proofs.«143798_j3564822855851_1_alg».proof.Proof.Results

noncomputable section

namespace Cert.KernelIdeal.Blocks

open Cert.KernelIdeal Cert.KernelIdeal.Gen Idealize.ShloMosaic Idealize.ShloMosaic.TcCoe Idealize.SL.Sem
open Idealize.ShloMosaic.ValueIdx Cert.LnDense Cert.KernelIdeal.BlockRows
open Idealize.ShloMosaic.Pipeline (Dat)

variable (m : (ℓ : Loc nD τ sig) → Buf (Elt Ideal) ℓ) (ρ : Dev nD → PrngReg)

/-! ## The arrays the region finds -/

/-- The region's first operand is the first argument with its two leading axes merged. -/
theorem V_rows (c : Dev nD) : (V m c main_v0 : S32768x1024.Idx → EReal)
    = shapeCast S32768x1024 (m ((c : Thread nD τ).loc main_arg0)) shapeCasts_S4096x8x1024_S32768x1024 := by
  show StableHlo.after hostOps0 (fun b => m (c, b)) (Proc.devRef .tc main_v0) = _
  after_results
  rfl

/-- The region's third operand is the third argument narrowed to bf16: on the extended reals, the argument itself. -/
theorem V_mat (c : Dev nD) (i : S1024x1024.Idx) : (V m c main_v1 : S1024x1024.Idx → EReal) i
    = (m ((c : Thread nD τ).loc main_arg2) : S1024x1024.Idx → EReal) i := by
  have e : (V m c main_v1 : S1024x1024.Idx → EReal)
      = (truncf (F := Ideal) .bf16 (m ((c : Thread nD τ).loc main_arg2) : FVec Ideal S1024x1024 .f32) bitsLt_bf16_f32
          : FVec Ideal S1024x1024 .bf16) := by
    show StableHlo.after hostOps0 (fun b => m (c, b)) (Proc.devRef .tc main_v1) = _
    after_results
  rw [e]
  rfl

/-- Row 8 a + b of the merged first argument is row (a, b) of the argument. -/
theorem row_merged (c : Dev nD) (a : Fin 4096) (b : Fin 8) (k : Fin 1024) (r : Fin 32768) (hr : r.val = 8 * a.val + b.val) :
    (V m c main_v0 : S32768x1024.Idx → EReal) (ix2 r k)
      = (m ((c : Thread nD τ).loc main_arg0) : S4096x8x1024.Idx → EReal) (ix3 a b k) := by
  rw [V_rows]
  refine shapeCast_apply _ _ (ix2 r k) (ix3 a b k) ?_
  rw [Shape.rowMajor_val_two, Shape.rowMajor_val_three]
  show (a.val * 8 + b.val) * 1024 + k.val = r.val * 1024 + k.val
  rw [hr]; omega

/-! ## The host operations after the region -/

/-- The first result is the first output array with its leading axis split. -/
theorem tail_z (c : Dev nD) : Pipeline.afterTail₀ cfgs (dats m) 0 (V0 m) [hostOps1] c main_v3
    = shapeCast S4096x8x1024 ((dats m 0 c).arrAt 3 cfg0.N) shapeCasts_S32768x1024_S4096x8x1024 := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.tc.devRef main_v2_0) = (dats m 0 c).arrAt 3 cfg0.N :=
    Pipeline.withArrays_arr spec0 launch0.win.arr_inj c (V0 m c) (fun w => (dats m 0 c).arrAt w cfg0.N) 3
  rw [e]
  rfl

/-- The second result is the second output array with its leading axis split. -/
theorem tail_ln (c : Dev nD) : Pipeline.afterTail₀ cfgs (dats m) 0 (V0 m) [hostOps1] c main_v4
    = shapeCast S4096x8x1024 ((dats m 0 c).arrAt 4 cfg0.N) shapeCasts_S32768x1024_S4096x8x1024 := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.tc.devRef main_v2_1) = (dats m 0 c).arrAt 4 cfg0.N :=
    Pipeline.withArrays_arr spec0 launch0.win.arr_inj c (V0 m c) (fun w => (dats m 0 c).arrAt w cfg0.N) 4
  rw [e]
  rfl

/-! ## The results at an index -/

/-- The split of the normalised rows, as a function of the arguments: the second result. -/
theorem split_ln (c : Dev nD) :
    shapeCast S4096x8x1024 (lnArr (V m c main_v0) (V m c main_arg1)) shapeCasts_S32768x1024_S4096x8x1024
      = lnOut (m ((c : Thread nD τ).loc main_arg0)) (m ((c : Thread nD τ).loc main_arg1)) := by
  funext i
  obtain ⟨a, b, h, rfl⟩ : ∃ (a : Fin 4096) (b : Fin 8) (h : Fin 1024), i = ix3 a b h := ⟨i 0, i 1, i 2, eq_ix3 i⟩
  have ha : a.val < 4096 := a.isLt
  have hb : b.val < 8 := b.isLt
  refine (shapeCast_apply _ _ (ix3 a b h) (ix2 (⟨8 * a.val + b.val, by omega⟩ : Fin 32768) h) ?_).trans ?_
  · rw [Shape.rowMajor_val_two, Shape.rowMajor_val_three]
    show (8 * a.val + b.val) * 1024 + h.val = (a.val * 8 + b.val) * 1024 + h.val
    omega
  · have h0 : (fun k : Fin 1024 => (V m c main_v0 : S32768x1024.Idx → EReal) (ix2 (⟨8 * a.val + b.val, by omega⟩ : Fin 32768) k))
        = fun k => (m ((c : Thread nD τ).loc main_arg0) : S4096x8x1024.Idx → EReal) (ix3 a b k) :=
      funext fun k => row_merged m c a b k _ rfl
    show lnRow (fun k : Fin 1024 => (V m c main_v0 : S32768x1024.Idx → EReal) (ix2 (⟨8 * a.val + b.val, by omega⟩ : Fin 32768) k))
        (fun k => (V m c main_arg1 : S1024.Idx → EReal) (ix1 k)) h = _
    rw [h0, V_main_arg1]
    rfl

/-- The split of the projected rows, as a function of the arguments: the first result. -/
theorem split_z (c : Dev nD) :
    shapeCast S4096x8x1024 (zArr (V m c main_v0) (V m c main_arg1) (V m c main_v1)) shapeCasts_S32768x1024_S4096x8x1024
      = zOut (m ((c : Thread nD τ).loc main_arg0)) (m ((c : Thread nD τ).loc main_arg1))
          (m ((c : Thread nD τ).loc main_arg2)) := by
  funext i
  obtain ⟨a, b, q, rfl⟩ : ∃ (a : Fin 4096) (b : Fin 8) (q : Fin 1024), i = ix3 a b q := ⟨i 0, i 1, i 2, eq_ix3 i⟩
  have ha : a.val < 4096 := a.isLt
  have hb : b.val < 8 := b.isLt
  refine (shapeCast_apply _ _ (ix3 a b q) (ix2 (⟨8 * a.val + b.val, by omega⟩ : Fin 32768) q) ?_).trans ?_
  · rw [Shape.rowMajor_val_two, Shape.rowMajor_val_three]
    show (8 * a.val + b.val) * 1024 + q.val = (a.val * 8 + b.val) * 1024 + q.val
    omega
  · have h0 : (fun k : Fin 1024 => (V m c main_v0 : S32768x1024.Idx → EReal) (ix2 (⟨8 * a.val + b.val, by omega⟩ : Fin 32768) k))
        = fun k => (m ((c : Thread nD τ).loc main_arg0) : S4096x8x1024.Idx → EReal) (ix3 a b k) :=
      funext fun k => row_merged m c a b k _ rfl
    have h2 : (fun k q : Fin 1024 => (V m c main_v1 : S1024x1024.Idx → EReal) (ix2 k q))
        = fun k q => (m ((c : Thread nD τ).loc main_arg2) : S1024x1024.Idx → EReal) (ix2 k q) :=
      funext fun k => funext fun q => V_mat m c (ix2 k q)
    show zRow (fun k : Fin 1024 => (V m c main_v0 : S32768x1024.Idx → EReal) (ix2 (⟨8 * a.val + b.val, by omega⟩ : Fin 32768) k))
        (fun k => (V m c main_arg1 : S1024.Idx → EReal) (ix1 k))
        (fun k q : Fin 1024 => (V m c main_v1 : S1024x1024.Idx → EReal) (ix2 k q)) q = _
    rw [h0, h2, V_main_arg1]
    rfl

/-! ## The run, read -/

/-- The kernel's run with both results named: every weakly fair execution ends with the first result at the projected
    rows and the second at the normalised rows of the arguments, and the arguments unchanged. -/
theorem run : θ_run defs (onTc (τ := τ) (main (F := Ideal))) ⟨m, fun _ => 0, ρ⟩ fun r => ∀ c : Dev nD,
      r.2.mem ((c.tc : Thread nD τ).loc main_v3)
        = zOut (m ((c.tc : Thread nD τ).loc main_arg0)) (m ((c.tc : Thread nD τ).loc main_arg1))
            (m ((c.tc : Thread nD τ).loc main_arg2))
      ∧ r.2.mem ((c.tc : Thread nD τ).loc main_v4)
        = lnOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans
        ((tail_z m c).trans ((congrArg (fun A => shapeCast S4096x8x1024 A shapeCasts_S32768x1024_S4096x8x1024)
          (final_z m c)).trans (split_z m c))),
      ((h c).2 main_v4 (Pipeline.mem_restRefs_of main_v4 (by decide) (by decide))).trans
        ((tail_ln m c).trans ((congrArg (fun A => shapeCast S4096x8x1024 A shapeCasts_S32768x1024_S4096x8x1024)
          (final_ln m c)).trans (split_ln m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Blocks

end
-- ==== Proof.RefRows.lean ====
/-
  The reference, read at an index, is the row specification.

  The reference's two results are indexed by (a, b, h) with a < 4096, b < 8 and h < 1024; the row they depend on is
  row (a, b) of the first argument, `fun k => x0 (a, b, k)`. Stage by stage: the mean, the centred entry, the variance,
  the scale factor, the normalised entry (the second result), and its contraction with the third argument (the first
  result). The host's sum from the zero word is the plain sum, its quotient and reciprocal square root are the
  extended reals' `Ideal.div` and `Ideal.rsqrt`.
-/
import proofs.«143798_j3564822855851_1_alg».proof.Proof.Gen.ReferenceIdeal.Read
import proofs.«143798_j3564822855851_1_alg».proof.Proof.RowSpec
import Idealize.ShloMosaic.Lib.ValueIdx
import Idealize.ShloMosaic.PureOps.Ideal.Laws

noncomputable section

open scoped BigOperators

namespace Cert.ReferenceIdeal.RefRows

open Cert.ReferenceIdeal Cert.ReferenceIdeal.Read Idealize.ShloMosaic Idealize.ShloMosaic.ValueIdx Cert.LnDense

variable (x0 : (⟨S4096x8x1024, .f32⟩ : BufTy).Contents (Elt Ideal)) (x1 : (⟨S1024, .f32⟩ : BufTy).Contents (Elt Ideal))
  (x2 : (⟨S1024x1024, .f32⟩ : BufTy).Contents (Elt Ideal))
variable (a : Fin 4096) (b : Fin 8)

/-! ## The stages' composed index maps, by coordinates -/

/-- Entry `k` of the row a row sum at (a, b) adds up. -/
theorem idx_sum (u : Fin 1) (k : Fin 1024) : idx_main_v0 (idx_main_v1 (ix3 a b u)) k = ix3 a b k :=
  funext fun d => Fin.ext (by match d with | ⟨0, _⟩ => rfl | ⟨1, _⟩ => rfl | ⟨2, _⟩ => rfl)
/-- The same for the sum of squares. -/
theorem idx_sumsq (u : Fin 1) (k : Fin 1024) : idx_main_v7 (idx_main_v8 (ix3 a b u)) k = ix3 a b k :=
  funext fun d => Fin.ext (by match d with | ⟨0, _⟩ => rfl | ⟨1, _⟩ => rfl | ⟨2, _⟩ => rfl)
/-- A per-row column read where it is broadcast along the row. -/
theorem idx_col4 (h : Fin 1024) : idx_main_v4 (ix3 a b h) = ix3 a b (0 : Fin 1) :=
  funext fun d => Fin.ext (by match d with | ⟨0, _⟩ => rfl | ⟨1, _⟩ => rfl | ⟨2, _⟩ => rfl)
theorem idx_col11 (h : Fin 1024) : idx_main_v11 (ix3 a b h) = ix3 a b (0 : Fin 1) :=
  funext fun d => Fin.ext (by match d with | ⟨0, _⟩ => rfl | ⟨1, _⟩ => rfl | ⟨2, _⟩ => rfl)
theorem idx_col16 (h : Fin 1024) : idx_main_v16 (ix3 a b h) = ix3 a b (0 : Fin 1) :=
  funext fun d => Fin.ext (by match d with | ⟨0, _⟩ => rfl | ⟨1, _⟩ => rfl | ⟨2, _⟩ => rfl)
/-- The scale vector read where it is broadcast over the rows. -/
theorem idx_scale (h : Fin 1024) : idx_main_v18 (idx_main_v19 (ix3 a b h)) = ix1 h :=
  funext fun d => Fin.ext (by match d with | ⟨0, _⟩ => rfl)
/-- The contraction's left factor: entry `k` of row (a, b). -/
theorem idx_lhs (q : Fin 1024) (k : Fin 1024) : lidx_main_v21 (ix3 a b q) k = ix3 a b k :=
  funext fun d => Fin.ext (by match d with | ⟨0, _⟩ => rfl | ⟨1, _⟩ => rfl | ⟨2, _⟩ => rfl)
/-- The contraction's right factor: entry (k, q) of the matrix. -/
theorem idx_rhs (q : Fin 1024) (k : Fin 1024) : ridx_main_v21 (ix3 a b q) k = ix2 k q :=
  funext fun d => Fin.ext (by match d with | ⟨0, _⟩ => rfl | ⟨1, _⟩ => rfl)

/-! ## The stages at an index -/

/-- The mean column at row (a, b) is the mean of that row. -/
theorem mean_apply (u : Fin 1) : val_main_v3 (F := Ideal) x0 (ix3 a b u) = rowMean (fun k => x0 (ix3 a b k)) := by
  rw [val_main_v3_apply, val_main_v1_apply, val_main_v0_apply, val_main_v2_apply, val_main_cst_0_apply, val_main_cst_apply]
  simp only [idx_sum, Ideal.hostDivf_def, Ideal.ofBits_def, Ideal.ofBits_zero_f32, zero_add]
  rfl

/-- The centred array at (a, b, h) is the row's entry less the row's mean (the copy the squares are taken of). -/
theorem centred_sq_apply (h : Fin 1024) : val_main_v5 (F := Ideal) x0 (ix3 a b h) = centred (fun k => x0 (ix3 a b k)) h := by
  rw [val_main_v5_apply, val_main_v4_apply, idx_col4, mean_apply]
  rfl

/-- The same for the copy that is scaled. -/
theorem centred_apply (h : Fin 1024) : val_main_v12 (F := Ideal) x0 (ix3 a b h) = centred (fun k => x0 (ix3 a b k)) h := by
  rw [val_main_v12_apply, val_main_v11_apply, idx_col11, mean_apply]
  rfl

/-- The variance column at row (a, b) is the variance of that row. -/
theorem var_apply (u : Fin 1) : val_main_v10 (F := Ideal) x0 (ix3 a b u) = rowVar (fun k => x0 (ix3 a b k)) := by
  rw [val_main_v10_apply, val_main_v8_apply, val_main_v7_apply, val_main_v9_apply, val_main_cst_2_apply, val_main_cst_1_apply]
  simp only [idx_sumsq, val_main_v6_apply, centred_sq_apply, Ideal.hostDivf_def, Ideal.mulf_def, Ideal.ofBits_def, Ideal.ofBits_zero_f32, zero_add]
  rfl

/-- The scale column at row (a, b) is that row's scale factor. -/
theorem scale_apply (u : Fin 1) : val_main_v15 (F := Ideal) x0 (ix3 a b u) = rowScale (fun k => x0 (ix3 a b k)) := by
  rw [val_main_v15_apply, val_main_v14_apply, var_apply, val_main_v13_apply, val_main_cst_3_apply]
  rfl

/-- THE SECOND RESULT at (a, b, h): entry `h` of the normalised row (a, b). -/
theorem ln_apply (h : Fin 1024) :
    val_main_v20 (F := Ideal) x0 x1 (ix3 a b h) = lnRow (fun k => x0 (ix3 a b k)) (fun k => x1 (ix1 k)) h := by
  rw [val_main_v20_apply, val_main_v17_apply, centred_apply, val_main_v16_apply, idx_col16, scale_apply,
    val_main_v19_apply, val_main_v18_apply, idx_scale]
  rfl

/-- THE FIRST RESULT at (a, b, q): entry `q` of the projected row (a, b). -/
theorem z_apply (q : Fin 1024) :
    val_main_v21 (F := Ideal) x0 x1 x2 (ix3 a b q)
      = zRow (fun k => x0 (ix3 a b k)) (fun k => x1 (ix1 k)) (fun k q => x2 (ix2 k q)) q := by
  rw [val_main_v21_apply]
  simp only [idx_lhs, idx_rhs, ln_apply]
  rfl

end Cert.ReferenceIdeal.RefRows

end
-- ==== Proof.RefResults.lean ====
/-
  The reference's two results are the results specification of its arguments: index by index, from the stages read
  at (a, b, ·).
-/
import proofs.«143798_j3564822855851_1_alg».proof.Proof.RefRows
import proofs.«143798_j3564822855851_1_alg».proof.Proof.Results

noncomputable section

namespace Cert.ReferenceIdeal.RefRows

open Cert.ReferenceIdeal Cert.ReferenceIdeal.Read Idealize.ShloMosaic Idealize.ShloMosaic.ValueIdx Cert.LnDense

variable (x0 : (⟨S4096x8x1024, .f32⟩ : BufTy).Contents (Elt Ideal)) (x1 : (⟨S1024, .f32⟩ : BufTy).Contents (Elt Ideal))
  (x2 : (⟨S1024x1024, .f32⟩ : BufTy).Contents (Elt Ideal))

/-- The reference's second result is the normalised rows. -/
theorem ln_eq : val_main_v20 (F := Ideal) x0 x1 = lnOut x0 x1 := by
  funext i
  obtain ⟨a, b, h, rfl⟩ : ∃ (a : Fin 4096) (b : Fin 8) (h : Fin 1024), i = ix3 a b h := ⟨i 0, i 1, i 2, eq_ix3 i⟩
  exact ln_apply x0 x1 a b h

/-- The reference's first result is the projected rows. -/
theorem z_eq : val_main_v21 (F := Ideal) x0 x1 x2 = zOut x0 x1 x2 := by
  funext i
  obtain ⟨a, b, q, rfl⟩ : ∃ (a : Fin 4096) (b : Fin 8) (q : Fin 1024), i = ix3 a b q := ⟨i 0, i 1, i 2, eq_ix3 i⟩
  exact z_apply x0 x1 x2 a b q

end Cert.ReferenceIdeal.RefRows

end
-- ==== Proof.lean ====
/-
  A layer normalisation followed by a dense projection: the kernel against its reference, on the extended reals.

  Both programs take an array `x` of 4096 × 8 rows of 1024 entries, a scale vector `s` and a 1024 × 1024 matrix `W`.
  Each row `r` is centred on its mean `(Σ r) / 1024`, scaled by the reciprocal square root of its variance
  `(Σ (r - mean)²) / 1024` plus a small constant, and multiplied entry by entry by `s`; this normalised row is the
  second result, and its contraction with `W` the first.

  The reference computes this on the whole arrays. The kernel merges the two leading axes, cuts the 32768 rows into 64
  blocks of 512 and treats one block per grid point, feeding the matrix unit the normalised block and the matrix in
  bf16 and accumulating in f32 from zero; afterwards the leading axis is split back. On the extended reals a change of
  float format is the identity, a lane sum and the host's sum from zero are the same finite sum, and the matrix unit's
  product into a zero accumulator and the host's contraction are the same sum of products. Both sides apply the same
  operations with the same constants in the same order to each row, so no law of arithmetic is needed, and the
  finiteness of the inputs is never used: the two results are the same functions (`zOut`, `lnOut`) of the arguments.

  The kernel's side: each stored value at an index is the row specification of the block's row (BlockRows), each block
  is a run of rows of the merged argument and the 64 blocks cover the output arrays (KernelBlocks, KernelArrays), and
  the reshapes before and after the region only renumber rows as 8 a + b (KernelResults). The reference's side: its
  stages read at an index give the same row specification (RefRows, RefResults). The kernel's idealization rewrote no
  operation, so what it preserves is trivially true.
-/
import proofs.«143798_j3564822855851_1_alg».proof.Defs
import proofs.«143798_j3564822855851_1_alg».proof.Proof.Gen.Kernel
import proofs.«143798_j3564822855851_1_alg».proof.Proof.Gen.Kernel.Skeleton
import proofs.«143798_j3564822855851_1_alg».proof.Proof.Gen.Kernel.Launch
import proofs.«143798_j3564822855851_1_alg».proof.Proof.Gen.Kernel.Points
import proofs.«143798_j3564822855851_1_alg».proof.Proof.Gen.Kernel.Frame
import proofs.«143798_j3564822855851_1_alg».proof.Proof.Gen.KernelIdeal
import proofs.«143798_j3564822855851_1_alg».proof.Proof.Gen.KernelIdeal.Skeleton
import proofs.«143798_j3564822855851_1_alg».proof.Proof.Gen.KernelIdeal.Launch
import proofs.«143798_j3564822855851_1_alg».proof.Proof.Gen.KernelIdeal.Points
import proofs.«143798_j3564822855851_1_alg».proof.Proof.Gen.KernelIdeal.Frame
import proofs.«143798_j3564822855851_1_alg».proof.Proof.Gen.ReferenceIdeal
import proofs.«143798_j3564822855851_1_alg».proof.Proof.Gen.ReferenceIdeal.Run
import proofs.«143798_j3564822855851_1_alg».proof.Proof.Gen.ReferenceIdeal.Read
import proofs.«143798_j3564822855851_1_alg».proof.Proof.Gen.Pre_finite_inputs
import Idealize.ShloMosaic.Adequacy
import Idealize.ShloMosaic.Init

import proofs.«143798_j3564822855851_1_alg».proof.Proof.KernelResults
import proofs.«143798_j3564822855851_1_alg».proof.Proof.RefResults

noncomputable section

namespace Cert.Proof

open Idealize.ShloMosaic Idealize.SL.Sem Cert.LnDense

/-- The word-level kernel runs and leaves its arguments unchanged. -/
theorem frame_kernel [Cert.Pre_finite_inputs.Facts] : Cert.frame_Kernel (hKernel := Cert.Kernel.Gen.facts) :=
  fun m ρ _ => Cert.Kernel.Gen.frame m ρ

/-- So does the kernel read on the extended reals. -/
theorem frame_kernel_ideal [Cert.Pre_finite_inputs.Facts] : Cert.frame_KernelIdeal (hKernelIdeal := Cert.KernelIdeal.Gen.facts) :=
  fun m ρ _ => Cert.KernelIdeal.Gen.frame m ρ

/-- The reference's run with its two results dropped: it runs and leaves its arguments unchanged. -/
theorem frame_reference [Cert.Pre_finite_inputs.Facts] :
    Cert.frame_ReferenceIdeal (hReferenceIdeal := Cert.ReferenceIdeal.Gen.facts) := fun m ρ _ =>
  (θ_run Cert.ReferenceIdeal.defs _ _).mono (fun _ h c => (h c).2.2) (Cert.ReferenceIdeal.Value.run (F := Ideal) m ρ)

/-- From memories that agree on the three arguments both programs end with the first result at the projected rows and
    the second at the normalised rows of the arguments. -/
theorem algebraic [Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' _ hagree
  refine ⟨fun c => zOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => lnOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ?_) (Cert.ReferenceIdeal.Value.run (F := Ideal) m' ρ')
  obtain ⟨a0, a1, a2⟩ := hagree c
  refine ⟨(h c).1.trans ?_, (h c).2.1.trans ?_, (h c).2.2⟩
  · refine (Cert.ReferenceIdeal.Read.val_main_v21_eq _ _ _).trans ?_
    rw [Cert.ReferenceIdeal.RefRows.z_eq, a0, a1, a2]
  · refine (Cert.ReferenceIdeal.Read.val_main_v20_eq _ _).trans ?_
    rw [Cert.ReferenceIdeal.RefRows.ln_eq, a0, a1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
